-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S50000x128 .f32) (main_arg1 : FVec F S128x64 .f32) (main_arg2 : FVec F S64 .f32) (main_arg3 : IVec S800000 32) (main_arg4 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S50000x128 : Shape := ⟨2, ![50000, 128]⟩
abbrev S128x64 : Shape := ⟨2, ![128, 64]⟩
abbrev S64 : Shape := ⟨1, ![64]⟩
abbrev S800000 : Shape := ⟨1, ![800000]⟩
abbrev S50000x64 : Shape := ⟨2, ![50000, 64]⟩
abbrev S5000x128 : Shape := ⟨2, ![5000, 128]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 20
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S50000x64, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S_, .f32⟩
  | .hbm, ⟨16, _⟩ => ⟨S50000x64, .f32⟩
  | .hbm, ⟨17, _⟩ => ⟨S800000x1, .i32⟩
  | .hbm, ⟨18, _⟩ => ⟨S50000x64, .f32⟩
  | .hbm, ⟨19, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  inb_S64_S64_0 : ∀ a, (![0] : Fin 1 → Nat) a + S64.size a ≤ S64.size a
  h_S64 : 0 < S64.numel
  shapeCasts_S5000x64_S5000x64 : S5000x64.ShapeCasts S5000x64
  shapeCasts_S64_S1x64 : S64.ShapeCasts S1x64
  broadcasts_S1x64_S5000x64 : S1x64.Broadcasts S5000x64
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S800000 : Shape := ⟨1, ![800000]⟩
abbrev S50000x64 : Shape := ⟨2, ![50000, 64]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S50000x64, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S_, .f32⟩
  | .hbm, ⟨16, _⟩ => ⟨S50000x64, .f32⟩
  | .hbm, ⟨17, _⟩ => ⟨S800000x1, .i32⟩
  | .hbm, ⟨18, _⟩ => ⟨S50000x64, .f32⟩
  | .hbm, ⟨19, _⟩ => ⟨S1x64, .f32⟩
  | .hbm, ⟨20, _⟩ => ⟨S50000x64, .f32⟩
  | .hbm, ⟨21, _⟩ => ⟨S50000x64, .f32⟩
  | .hbm, ⟨22, _⟩ => ⟨S_, .f32⟩
  | .hbm, ⟨23, _⟩ => ⟨S50000x64, .f32⟩
  | .hbm, ⟨24, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Linear.lean ====
/-
  Region 0: the matrix product h = feats · weight, computed 5000 rows at a time.

  The grid has ten points. Point t loads rows 5000 t … 5000 t + 4999 of feats (all 128 columns) and the whole of
  weight, multiplies them into a zero accumulator, and writes the 5000 × 64 product back as rows
  5000 t … 5000 t + 4999 of h. Over the extended reals the narrowing of the factors to bf16 is the identity and the
  product's entry (r, c) is the sum over k of feats (r, k) · weight (k, c), which is the reference's
  dot_general at (r, c). The ten row blocks tile h, so after the region h is the reference's product.
-/
import proofs.«128806_j22874995818645_2_alg».proof.Proof.Gen.KernelIdeal.Frame
import proofs.«128806_j22874995818645_2_alg».proof.Proof.Gen.ReferenceIdeal.Read
import Idealize.ShloMosaic.Lib.Pipeline.Value
import Idealize.ShloMosaic.Lib.ValueIdx
import Idealize.ShloMosaic.PureOps.Ideal.Laws

noncomputable section

namespace Cert.KernelIdeal.Linear

open Cert.KernelIdeal Cert.KernelIdeal.Gen Idealize.ShloMosaic Idealize.ShloMosaic.TcCoe Idealize.SL.Sem
open Idealize.ShloMosaic.Pipeline (Dat)

/-! ## One block: the product at an index -/

/-- In a block of 5000 rows, the left factor's entry that meets column `k` of the contraction: row `j 0`. -/
abbrev rowAt (j : S5000x64.Idx) (k : Fin 128) : S5000x128.Idx := fun a => match a with
  | ⟨0, _⟩ => ⟨(j 0).val, (j 0).isLt⟩
  | ⟨1, _⟩ => ⟨k.val, k.isLt⟩
/-- The right factor's entry that meets it: row `k`, column `j 1`. -/
abbrev colAt (j : S5000x64.Idx) (k : Fin 128) : S128x64.Idx := fun a => match a with
  | ⟨0, _⟩ => ⟨k.val, k.isLt⟩
  | ⟨1, _⟩ => ⟨(j 1).val, (j 1).isLt⟩

theorem lhs_row (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_col (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem rhs_row (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem rhs_col (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What a grid point stores, at entry `j` of its block: the sum over the 128 contracted columns of the row block's
    entry times the weight's. The narrowing to bf16 of both factors is the identity on the extended reals, and
    the accumulator the product is added to is zero. -/
theorem product_block (x0 : Vec Ideal S5000x128 .f32) (x1 : Vec Ideal S128x64 .f32) (j : S5000x64.Idx) :
    k0_pay1 (F := Ideal) x0 x1 j = ∑ k : Fin 128, x0 (rowAt j k) * x1 (colAt j k) := by
  unfold k0_pay1
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = rowAt j k := funext fun a => Fin.ext (by
    match a with
    | ⟨0, _⟩ => exact lhs_row _ _
    | ⟨1, _⟩ => exact (lhs_col _ _).trans hk)
  have er : dot_S5000x128_S128x64_S5000x64_1_0_0_1_n_n.rhsIdx j ((ValueIdx.contrEquiv1 dot_S5000x128_S128x64_S5000x64_1_0_0_1_n_n 128 rfl rfl).symm k) = colAt j k := funext fun a => Fin.ext (by
    match a with
    | ⟨0, _⟩ => exact (rhs_row _ _).trans hk
    | ⟨1, _⟩ => exact rhs_col _ _)
  rw [el, er]
  rfl

/-! ## From the blocks to the array -/

variable (V : (c : Dev nD) → (b : Ref sig .tc) → Buf (Elt Ideal) ((c : Thread nD τ).loc b))

theorem origin2 : (![0, 0] : Fin 2 → Nat) = fun _ => 0 := funext fun a => by fin_cases a <;> rfl

/-- Where the three windows' blocks sit at point `t`: feats' and h's blocks are row block `t`, weight's is the whole. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the reference's product of the two arrays the region finds. -/
theorem flushed_eq (c : Dev nD) (t : Fin cfg0.N) :
    (dat0 V c).flushed 2 t = ((cfg0.win 2).blk t).view.read (Elt Ideal)
      (Cert.ReferenceIdeal.Read.val_main_v0 (F := Ideal) (V c main_arg0) (V c main_arg1)) := by
  show (cfg0.win 2).cut (grid0.coords t) ((dat0 V c).after 2 t) = _
  rw [after0_2]
  unfold out0_2
  rw [View.canon_unit_zero origin2]
  simp only [View.ld_unit_zero (S := S5000x128) origin2, View.ld_unit_zero (S := S128x64) origin2]
  obtain ⟨e00, e01, e10, e11, e20, e21⟩ := block_indices t
  funext y
  show k0_pay1 (F := Ideal) (iblk0 V c 0 t) (iblk0 V c 1 t) y
    = Cert.ReferenceIdeal.Read.val_main_v0 (F := Ideal) (V c main_arg0) (V c main_arg1) (((cfg0.win 2).blk t).view.emb y)
  rw [Cert.ReferenceIdeal.Read.val_main_v0_apply]
  refine (product_block (iblk0 V c 0 t) (iblk0 V c 1 t) y).trans ?_
  refine Finset.sum_congr rfl fun k _ => ?_
  have hl : ((cfg0.win 0).blk t).view.emb (rowAt y k)
      = Cert.ReferenceIdeal.Read.lidx_main_v0 (((cfg0.win 2).blk t).view.emb y) k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  have hr : ((cfg0.win 1).blk t).view.emb (colAt y k)
      = Cert.ReferenceIdeal.Read.ridx_main_v0 (((cfg0.win 2).blk t).view.emb y) k := by
    funext a; apply Fin.ext
    match a with
    | ⟨0, _⟩ => show win0_1.index t (0 : Fin 2) * 128 + 1 * k.val = k.val; omega
    | ⟨1, _⟩ => show win0_1.index t (1 : Fin 2) * 64 + 1 * (y 1).val = win0_2.index t (1 : Fin 2) * 64 + 1 * (y 1).val; omega
  have hA : iblk0 V c 0 t (rowAt y k)
      = V c main_arg0 (Cert.ReferenceIdeal.Read.lidx_main_v0 (((cfg0.win 2).blk t).view.emb y) k) :=
    congrArg (V c main_arg0) hl
  have hB : iblk0 V c 1 t (colAt y k)
      = V c main_arg1 (Cert.ReferenceIdeal.Read.ridx_main_v0 (((cfg0.win 2).blk t).view.emb y) k) :=
    congrArg (V c main_arg1) hr
  rw [hA, hB]

/-- An index of h is in point `t`'s block iff each coordinate is in the block's range on its axis. -/
theorem mem_block (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- The row blocks tile h: row `r` is in the block of point `r / 5000`. -/
theorem cover (i : S50000x64.Idx) :
    ∃ t : Fin cfg0.N, (cfg0.win 2).flush t = true ∧ i ∈ ((cfg0.win 2).blk t).view.set := by
  have h0 : (i 0).val < 50000 := (i 0).isLt
  have h1 : (i 1).val < 64 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, e20, e21⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After region 0 its output array is the reference's product of the two arrays the region found. -/
theorem final (c : Dev nD) :
    (dat0 V c).arrAt 2 cfg0.N = Cert.ReferenceIdeal.Read.val_main_v0 (F := Ideal) (V c main_arg0) (V c main_arg1) :=
  (dat0 V c).arrAt_eq_of_cover 2 _ (fun t _ => flushed_eq V c t) cover

end Cert.KernelIdeal.Linear

end
-- ==== Proof.RefValue.lean ====
/-
  The reference's result as a composition of three functions of the argument arrays.

  With feats : [50000, 128], weight : [128, 64], bias : [64] and two edge tables src, dst : [800000] the
  reference computes

      h      = feats · weight                                  (a matrix product, [50000, 64])
      agg    = aggregate h src dst                              (row src e of h summed into row dst e, over all edges e)
      result = max (agg + bias, 0)                              (bias spread along the rows)

  `aggregate` is kept as ONE function of h and the two tables: the source table is normalised (a negative
  source index has 50000 added), the rows are gathered and then scatter-added into a zero array. Nothing in
  this certificate looks inside it; only that the same function is applied on both sides.
-/
import proofs.«128806_j22874995818645_2_alg».proof.Proof.Gen.ReferenceIdeal.Read

noncomputable section

namespace Cert.ReferenceIdeal.RefValue

open Cert.ReferenceIdeal Cert.ReferenceIdeal.Gen Cert.ReferenceIdeal.Read Idealize.ShloMosaic

variable {F : FTy → Type} [FloatOps F]

/-- The message passing step: every edge `e` carries row `src e` of `h` (a negative `src e` read as
    `src e + 50000`), and the rows arriving at a node are summed, starting from zero. -/
def aggregate (h : (⟨S50000x64, .f32⟩ : BufTy).Contents (Elt F)) (src dst : (⟨S800000, .i32⟩ : BufTy).Contents (Elt F)) :
    (⟨S50000x64, .f32⟩ : BufTy).Contents (Elt F) :=
  Host.scatterAdd scatter_S50000x64_S800000x1_S800000x64_1_0_0_1 (val_main_v8 (F := F)) (val_main_v9 (F := F) dst)
    (Host.gather gather_S50000x64_S800000x1_S800000x64_1_0_n_n_0_1_164 h (val_main_v6 (F := F) src))

/-- The last step: the bias added to every row, then the maximum with zero. -/
def biasRelu (agg : (⟨S50000x64, .f32⟩ : BufTy).Contents (Elt F)) (bias : (⟨S64, .f32⟩ : BufTy).Contents (Elt F)) :
    (⟨S50000x64, .f32⟩ : BufTy).Contents (Elt F) :=
  maximumf (addf agg (val_main_v12 (F := F) bias)) (val_main_call0_v0 (F := F))

/-- The reference's result is the last step applied to the aggregation of the matrix product. -/
theorem result_eq (x0 : (⟨S50000x128, .f32⟩ : BufTy).Contents (Elt F)) (x1 : (⟨S128x64, .f32⟩ : BufTy).Contents (Elt F))
    (x2 : (⟨S64, .f32⟩ : BufTy).Contents (Elt F)) (x3 x4 : (⟨S800000, .i32⟩ : BufTy).Contents (Elt F)) :
    val_main_v14 (F := F) x0 x1 x2 x3 x4 = biasRelu (aggregate (val_main_v0 (F := F) x0 x1) x3 x4) x2 := rfl

/-- The last step at an index: entry (r, c) of the aggregate plus entry c of the bias, or zero if that is larger. -/
theorem biasRelu_apply (agg : (⟨S50000x64, .f32⟩ : BufTy).Contents (Elt F)) (bias : (⟨S64, .f32⟩ : BufTy).Contents (Elt F))
    (i : S50000x64.Idx) :
    biasRelu agg bias i
      = FloatOps.maximumf (FloatOps.addf (agg i) (bias (idx_main_v11 (idx_main_v12 i)))) (FloatOps.ofBits .f32 0x00000000#32) := by
  unfold biasRelu
  show FloatOps.maximumf (FloatOps.addf (agg i) (val_main_v12 (F := F) bias i)) (val_main_call0_v0 (F := F) i) = _
  rw [val_main_v12_apply, val_main_v11_apply, val_main_call0_v0_apply, val_main_call0_cst_apply]

end Cert.ReferenceIdeal.RefValue

end
-- ==== Proof.Between.lean ====
/-
  The host operations between the two kernel regions.

  Region 1 is entered after thirteen host operations run on what region 0 left. Read at the two buffers region 1
  takes as inputs: the aggregate's buffer holds `aggregate` of region 0's output array and the two edge tables,
  and the bias buffer is untouched. The chain is the reference's own, operation for operation (the two programs
  spell its dimension records in their own namespaces; the records are equal field by field).
-/
import proofs.«128806_j22874995818645_2_alg».proof.Proof.Gen.KernelIdeal.Frame
import proofs.«128806_j22874995818645_2_alg».proof.Proof.RefValue
import Idealize.ShloMosaic.Lib.StableHlo.Run

noncomputable section

namespace Cert.KernelIdeal.Between

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Entering region 1, the aggregate's buffer holds the aggregation of what region 0 left in its output array,
    along the edge tables as region 0 left them. -/
theorem entry_agg (c : Dev nD) :
    (V2 m ρ c main_v10 : (⟨S50000x64, .f32⟩ : BufTy).Contents (Elt F))
      = Cert.ReferenceIdeal.RefValue.aggregate (F := F) (V1 m ρ c main_v0) (V1 m ρ c main_arg3) (V1 m ρ c main_arg4) := by
  show StableHlo.after hostOps1 (W1 m ρ c) (Proc.devRef .tc main_v10) = _
  after_results
  rfl

/-- Entering region 1, the bias buffer holds what it held when region 0 ended. -/
theorem entry_bias (c : Dev nD) :
    (V2 m ρ c main_arg2 : (⟨S64, .f32⟩ : BufTy).Contents (Elt F)) = V1 m ρ c main_arg2 := by
  show StableHlo.after hostOps1 (W1 m ρ c) (Proc.devRef .tc main_arg2) = _
  after_results

end Cert.KernelIdeal.Between

end
-- ==== Proof.BiasRelu.lean ====
/-
  Region 1: the bias added to every row of the aggregate, then the maximum with zero, 5000 rows at a time.

  The grid has ten points. Point t loads rows 5000 t … 5000 t + 4999 of the aggregate and the whole bias vector,
  spreads the bias along the rows, adds, takes the maximum with zero entry by entry, and writes the block back as the
  same rows of the result. Entry (r, c) of the result is therefore max (agg (r, c) + bias c, 0), which is the
  reference's last step at (r, c); the ten row blocks tile the result.
-/
import proofs.«128806_j22874995818645_2_alg».proof.Proof.Gen.KernelIdeal.Frame
import proofs.«128806_j22874995818645_2_alg».proof.Proof.RefValue
import Idealize.ShloMosaic.Lib.Pipeline.Value
import Idealize.ShloMosaic.Lib.ValueIdx
import Idealize.ShloMosaic.Lib.ValueLayout

noncomputable section

namespace Cert.KernelIdeal.BiasRelu

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]

/-! ## One block: the sum and the maximum at an index -/

/-- What a grid point stores, at row `p` and column `q` of its block: the aggregate's entry plus the bias's entry `q`,
    or zero if that is larger. (The bias vector is seen as one row and that row repeated down the block.) -/
theorem biasRelu_block (bias : Vec F S64 .f32) (agg : Vec F S5000x64 .f32) (p : Fin 5000) (q : Fin 64) :
    k1_pay1 bias agg (ix2 p q)
      = FloatOps.maximumf (FloatOps.addf (agg (ix2 p q)) (bias (ix1 q))) (FloatOps.ofBits .f32 0x00000000#32) := by
  unfold k1_pay1
  show FloatOps.maximumf (FloatOps.addf (shapeCast S5000x64 agg shapeCasts_S5000x64_S5000x64 (ix2 p q))
      (broadcastTo S5000x64 (shapeCast S1x64 bias shapeCasts_S64_S1x64) broadcasts_S1x64_S5000x64 (ix2 p q))) _ = _
  rw [shapeCast_self, broadcastTo_1b_ab_apply, shapeCast_a_1a_apply]
  rfl

/-! ## From the blocks to the array -/

variable (V : (c : Dev nD) → (b : Ref sig .tc) → Buf (Elt F) ((c : Thread nD τ).loc b))

theorem origin1 : (![0] : Fin 1 → Nat) = fun _ => 0 := funext fun a => by fin_cases a; rfl
theorem origin2 : (![0, 0] : Fin 2 → Nat) = fun _ => 0 := funext fun a => by fin_cases a <;> rfl

/-- Where the three windows' blocks sit at point `t`: the aggregate's and the result's are row block `t`, the bias's
    is the whole vector. -/
theorem block_indices : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point `t` writes back is block `t` of the reference's last step applied to the two arrays the region finds. -/
theorem flushed_eq (c : Dev nD) (t : Fin cfg1.N) :
    (dat1 V c).flushed 2 t = ((cfg1.win 2).blk t).view.read (Elt F)
      (Cert.ReferenceIdeal.RefValue.biasRelu (F := F) (V c main_v10) (V c main_arg2)) := by
  show (cfg1.win 2).cut (grid1.coords t) ((dat1 V c).after 2 t) = _
  rw [after1_2]
  unfold out1_2
  rw [View.canon_unit_zero origin2]
  simp only [View.ld_unit_zero (S := S64) origin1, View.ld_unit_zero (S := S5000x64) origin2]
  obtain ⟨e00, e01, e10, e20, e21⟩ := block_indices t
  funext y
  obtain ⟨p, q, rfl⟩ : ∃ (p : Fin 5000) (q : Fin 64), y = ix2 p q := ⟨y 0, y 1, eq_ix2 y⟩
  show k1_pay1 (iblk1 V c 1 t) (iblk1 V c 0 t) (ix2 p q)
    = Cert.ReferenceIdeal.RefValue.biasRelu (F := F) (V c main_v10) (V c main_arg2) (((cfg1.win 2).blk t).view.emb (ix2 p q))
  rw [Cert.ReferenceIdeal.RefValue.biasRelu_apply]
  refine (biasRelu_block (iblk1 V c 1 t) (iblk1 V c 0 t) p q).trans ?_
  have ha : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  have hb : ((cfg1.win 1).blk t).view.emb (ix1 q)
      = Cert.ReferenceIdeal.Read.idx_main_v11 (Cert.ReferenceIdeal.Read.idx_main_v12 (((cfg1.win 2).blk t).view.emb (ix2 p q))) := by
    funext a; apply Fin.ext
    match a with
    | ⟨0, _⟩ => show win1_1.index t (0 : Fin 1) * 64 + 1 * q.val = win1_2.index t (1 : Fin 2) * 64 + 1 * q.val; omega
  show FloatOps.maximumf (FloatOps.addf ((V c main_v10 : Vec F S50000x64 .f32) (((cfg1.win 0).blk t).view.emb (ix2 p q)))
      ((V c main_arg2 : Vec F S64 .f32) (((cfg1.win 1).blk t).view.emb (ix1 q)))) _ = _
  rw [ha, hb]

/-- An index of the result is in point `t`'s block iff each coordinate is in the block's range on its axis. -/
theorem mem_block (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v11).slice (win1_2.rect t)).set ↔ _
  rw [View.set_slice_whole, Rect.mem_set_unit]
  exact Iff.rfl

/-- The row blocks tile the result: row `r` is in the block of point `r / 5000`. -/
theorem cover (i : S50000x64.Idx) :
    ∃ t : Fin cfg1.N, (cfg1.win 2).flush t = true ∧ i ∈ ((cfg1.win 2).blk t).view.set := by
  have h0 : (i 0).val < 50000 := (i 0).isLt
  have h1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, e20, e21⟩ := block_indices t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- After region 1 its output array is the reference's last step applied to the aggregate and the bias the region found. -/
theorem final (c : Dev nD) :
    (dat1 V c).arrAt 2 cfg1.N = Cert.ReferenceIdeal.RefValue.biasRelu (F := F) (V c main_v10) (V c main_arg2) :=
  (dat1 V c).arrAt_eq_of_cover 2 _ (fun t _ => flushed_eq V c t) cover

end Cert.KernelIdeal.BiasRelu

end
-- ==== Proof.Whole.lean ====
/-
  The idealized kernel program as a whole: its run with the result named, and the result's value.

  @main is region 0, thirteen host operations, region 1. The buffers' contents at the three boundaries are a fold
  from the launch memory: after region 0 its output array holds what its write-backs left, after the host
  operations each of their results holds its operation's value, after region 1 its output array holds what its
  write-backs left. Read at the result buffer, and with each stage's value put in:

      result = max (aggregate (feats · weight) src dst + bias, 0),

  the reference's result as a function of the five argument arrays.
-/
import proofs.«128806_j22874995818645_2_alg».proof.Proof.Gen.KernelIdeal.Frame
import proofs.«128806_j22874995818645_2_alg».proof.Proof.Linear
import proofs.«128806_j22874995818645_2_alg».proof.Proof.Between
import proofs.«128806_j22874995818645_2_alg».proof.Proof.BiasRelu

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The run, with the result buffer read -/

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this statement, which takes
-- unfolding plain definitions in a metavariable's type
set_option backward.isDefEq.respectTransparency.types false in
/-- Every weakly fair execution of @main from `m` terminates without a fault; the result buffer ends at the last
    boundary's contents and the five argument arrays end as launched. The last thread state holds every unscoped
    buffer at the last boundary's contents; the result buffer is one of them. -/
theorem run : θ_run defs (onTc (τ := τ) (main (F := F))) ⟨m, fun _ => 0, ρ⟩ (fun r => ∀ c : Dev nD,
      r.2.mem ((c.tc : Thread nD τ).loc main_v11) = W3 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v11 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

end Run

/-! ## The result's value over the extended reals -/

section Value

open Cert.ReferenceIdeal.RefValue (aggregate biasRelu)

variable (m : (ℓ : Loc nD τ sig) → Buf (Elt Ideal) ℓ) (ρ : Dev nD → PrngReg)

/-- After region 0 its output array is the product of the two arrays as launched. -/
theorem product_array (c : Dev nD) :
    V1 m ρ c main_v0 = Cert.ReferenceIdeal.Read.val_main_v0 (F := Ideal)
      (m ((c.tc : Thread nD τ).loc main_arg0)) (m ((c.tc : Thread nD τ).loc main_arg1)) :=
  (W1_arr m ρ c 2).trans (Cert.KernelIdeal.Linear.final (V0 m ρ) c)

/-- Region 0 leaves the bias and the two edge tables as launched. -/
theorem bias_kept (c : Dev nD) : V1 m ρ c main_arg2 = m ((c.tc : Thread nD τ).loc main_arg2) :=
  W1_of_ne m ρ c main_arg2 (by decide)
theorem src_kept (c : Dev nD) : V1 m ρ c main_arg3 = m ((c.tc : Thread nD τ).loc main_arg3) :=
  W1_of_ne m ρ c main_arg3 (by decide)
theorem dst_kept (c : Dev nD) : V1 m ρ c main_arg4 = m ((c.tc : Thread nD τ).loc main_arg4) :=
  W1_of_ne m ρ c main_arg4 (by decide)

/-- After region 1 the result buffer holds the last step applied to what region 1 found. -/
theorem result_array (c : Dev nD) :
    W3 m ρ c (Proc.devRef .tc main_v11) = biasRelu (F := Ideal) (V2 m ρ c main_v10) (V2 m ρ c main_arg2) :=
  (W3_arr m ρ c 2).trans (Cert.KernelIdeal.BiasRelu.final (V2 m ρ) c)

/-- The result buffer at the last boundary is the reference's result of the five argument arrays as launched. -/
theorem result_value (c : Dev nD) :
    W3 m ρ c (Proc.devRef .tc main_v11) = Cert.ReferenceIdeal.Read.val_main_v14 (F := Ideal)
      (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  rw [Cert.ReferenceIdeal.RefValue.result_eq, result_array m ρ c, Cert.KernelIdeal.Between.entry_agg m ρ c,
    Cert.KernelIdeal.Between.entry_bias m ρ c, product_array m ρ c, bias_kept m ρ c, src_kept m ρ c, dst_kept m ρ c]

end Value

end Cert.KernelIdeal.Whole

end
-- ==== Proof.lean ====
/-
  A graph convolution layer, kernel against reference, over the extended reals.

  Inputs: feats : [50000, 128], weight : [128, 64], bias : [64] (floats) and two edge tables src, dst : [800000]
  (32-bit integers). Both programs compute

      h      = feats · weight                       entry (r, c) = the sum over k < 128 of feats (r, k) · weight (k, c)
      agg    = aggregate h src dst                  row src e of h summed into row dst e, over the 800000 edges e
      result = max (agg + bias, 0)                  entry (r, c) = max (agg (r, c) + bias c, 0)

  The reference does all three steps with host operations. The kernel program does the first and the last step
  each in a kernel region over ten blocks of 5000 rows, and the middle step with the very host operations the
  reference uses. Over the extended reals the first region's narrowing of both factors to bf16 is the identity
  and its product into a zero accumulator is the sum above (Proof/Linear.lean); the middle step is one function
  applied to equal arrays on both sides and is never opened (Proof/RefValue.lean, Proof/Between.lean); the last
  region's entry is the reference's, term for term (Proof/BiasRelu.lean). No law used here needs the inputs finite:
  the two sides are the same sums and the same maxima in the same order, so the precondition is never opened.
  Proof/Whole.lean has the kernel program's run with the result buffer read, and chains the three steps.

  The idealization rewrote no operation, so that the idealized kernel program is the kernel program's sanctioned
  idealization has nothing to state. The three frames: the two kernel programs' are the generated ones, the
  reference's is its generated run with the result dropped.
-/
import proofs.«128806_j22874995818645_2_alg».proof.Defs
import proofs.«128806_j22874995818645_2_alg».proof.Proof.Gen.Kernel
import proofs.«128806_j22874995818645_2_alg».proof.Proof.Gen.Kernel.Skeleton
import proofs.«128806_j22874995818645_2_alg».proof.Proof.Gen.Kernel.Launch
import proofs.«128806_j22874995818645_2_alg».proof.Proof.Gen.Kernel.Points
import proofs.«128806_j22874995818645_2_alg».proof.Proof.Gen.Kernel.Frame
import proofs.«128806_j22874995818645_2_alg».proof.Proof.Gen.KernelIdeal
import proofs.«128806_j22874995818645_2_alg».proof.Proof.Gen.KernelIdeal.Skeleton
import proofs.«128806_j22874995818645_2_alg».proof.Proof.Gen.KernelIdeal.Launch
import proofs.«128806_j22874995818645_2_alg».proof.Proof.Gen.KernelIdeal.Points
import proofs.«128806_j22874995818645_2_alg».proof.Proof.Gen.KernelIdeal.Frame
import proofs.«128806_j22874995818645_2_alg».proof.Proof.Gen.ReferenceIdeal
import proofs.«128806_j22874995818645_2_alg».proof.Proof.Gen.ReferenceIdeal.Run
import proofs.«128806_j22874995818645_2_alg».proof.Proof.Gen.ReferenceIdeal.Read
import proofs.«128806_j22874995818645_2_alg».proof.Proof.Gen.Pre_finite_inputs
import proofs.«128806_j22874995818645_2_alg».proof.Proof.Whole
import Idealize.ShloMosaic.Adequacy
import Idealize.ShloMosaic.Init

noncomputable section

namespace Cert.Proof

open Idealize.ShloMosaic Idealize.SL.Sem

/-- The kernel program as printed runs, and its argument arrays end unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments both idealized programs end with the result buffer at
    max (aggregate (feats · weight) src dst + bias, 0) of those arguments, and with the arguments unchanged. -/
theorem algebraic : Cert.algebraic_KernelIdeal_ReferenceIdeal := by
  intro m ρ m' ρ' _ hagree
  refine ⟨fun c => Cert.ReferenceIdeal.Read.val_main_v14 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Whole.result_value m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact Cert.ReferenceIdeal.Read.val_main_v14_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
